-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x128 : Shape := ⟨2, ![400000, 128]⟩
abbrev S800000 : Shape := ⟨1, ![800000]⟩
abbrev S512x128 : Shape := ⟨2, ![512, 128]⟩
abbrev S512 : Shape := ⟨1, ![512]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S512 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg6 : FVec F S512x128 .f32) (main_arg7 : FVec F S512x128 .f32) (main_arg8 : FVec F S512 .f32) (main_arg9 : FVec F S512 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S512x128 .f32 := Host.absf main_arg6
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512x128 .f32 := Host.absf main_arg7
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_v33

def fn {F : FTy → Type} [FloatOps F] (main_arg0 : FVec F S100000x128 .f32) (main_arg1 : FVec F S400000x128 .f32) (main_arg2 : FVec F S400000x128 .f32) (main_arg3 : FVec F S800000 .f32) (main_arg4 : IVec S800000 32) (main_arg5 : IVec S800000 32) (main_arg6 : FVec F S512x128 .f32) (main_arg7 : FVec F S512x128 .f32) (main_arg8 : FVec F S512 .f32) (main_arg9 : FVec F S512 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg6 main_arg7 main_arg8 main_arg9 main_v13 main_v16
-- ==== Kernel.lean ====
abbrev S100000x128 : Shape := ⟨2, ![100000, 128]⟩
abbrev S400000x128 : Shape := ⟨2, ![400000, 128]⟩
abbrev S800000 : Shape := ⟨1, ![800000]⟩
abbrev S512x128 : Shape := ⟨2, ![512, 128]⟩
abbrev S512 : Shape := ⟨1, ![512]⟩
abbrev S800000x1 : Shape := ⟨2, ![800000, 1]⟩
abbrev S_ : Shape := ⟨0, ![]⟩
abbrev S800000x128 : Shape := ⟨2, ![800000, 128]⟩
abbrev S128x512 : Shape := ⟨2, ![128, 512]⟩
abbrev S1x512 : Shape := ⟨2, ![1, 512]⟩
abbrev S2000x128 : Shape := ⟨2, ![2000, 128]⟩
abbrev S2000x512 : Shape := ⟨2, ![2000, 512]⟩

abbrev nBuf : Space → Nat
  | .hbm => 32
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S400000x128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S512x128, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S400000x128, .f32⟩
  | .hbm, ⟨24, _⟩ => ⟨S800000x1, .i32⟩
  | .hbm, ⟨25, _⟩ => ⟨S400000x128, .f32⟩
  | .hbm, ⟨26, _⟩ => ⟨S128x512, .f32⟩
  | .hbm, ⟨27, _⟩ => ⟨S128x512, .f32⟩
  | .hbm, ⟨28, _⟩ => ⟨S1x512, .f32⟩
  | .hbm, ⟨29, _⟩ => ⟨S1x512, .f32⟩
  | .hbm, ⟨30, _⟩ => ⟨S400000x128, .f32⟩
  | .hbm, ⟨31, _⟩ => ⟨S400000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S400000x128 : S_.BroadcastsInDim S400000x128 (![] : Fin 0 → Fin S400000x128.rank)
  transposes_S512x128_S128x512_1_0 : S512x128.Transposes [1, 0] S128x512
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  gather_S100000x128_S800000x1_S800000x128_1_0_n_n_0_1_1128_wf : GatherDims.WF S100000x128 S800000x1 S800000x128 [1] [0] [] [0] [] 1 ![1, 128]
  scatter_S400000x128_S800000x1_S800000x128_1_0_0_1_wf : ScatterDims.WF S400000x128 S800000x1 S800000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S400000x128.size a
  hwx0_0 : ∀ i : grid0.Coords, EltTy.bits .f32 = 32 ∨ (Rect.block (s := S400000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S400000x128.size a
  hwx0_1 : ∀ i : grid0.Coords, EltTy.bits .f32 = 32 ∨ (Rect.block (s := S400000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S400000x128.size a
  hwx0_2 : ∀ i : grid0.Coords, EltTy.bits .f32 = 32 ∨ (Rect.block (s := S400000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S400000x128.size a
  hwx0_7 : ∀ i : grid0.Coords, EltTy.bits .f32 = 32 ∨ (Rect.block (s := S400000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S400000x128.size a
  hwx0_8 : ∀ i : grid0.Coords, EltTy.bits .f32 = 32 ∨ (Rect.block (s := S400000x128) S2000x128.size (cc0_transform_8 i) (hinb0_8 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S400000x128 : Shape := ⟨2, ![400000, 128]⟩
abbrev S800000 : Shape := ⟨1, ![800000]⟩
abbrev S512x128 : Shape := ⟨2, ![512, 128]⟩
abbrev S512 : Shape := ⟨1, ![512]⟩
abbrev S800000x1 : Shape := ⟨2, ![800000, 1]⟩
abbrev S_ : Shape := ⟨0, ![]⟩
abbrev S800000x128 : Shape := ⟨2, ![800000, 128]⟩
abbrev S128x512 : Shape := ⟨2, ![128, 512]⟩
abbrev S400000x512 : Shape := ⟨2, ![400000, 512]⟩
abbrev S1x512 : Shape := ⟨2, ![1, 512]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S400000x128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S512x128, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S400000x128, .f32⟩
  | .hbm, ⟨24, _⟩ => ⟨S800000x1, .i32⟩
  | .hbm, ⟨25, _⟩ => ⟨S400000x128, .f32⟩
  | .hbm, ⟨26, _⟩ => ⟨S128x512, .f32⟩
  | .hbm, ⟨27, _⟩ => ⟨S400000x512, .f32⟩
  | .hbm, ⟨28, _⟩ => ⟨S1x512, .f32⟩
  | .hbm, ⟨29, _⟩ => ⟨S400000x512, .f32⟩
  | .hbm, ⟨30, _⟩ => ⟨S400000x512, .f32⟩
  | .hbm, ⟨31, _⟩ => ⟨S128x512, .f32⟩
  | .hbm, ⟨32, _⟩ => ⟨S400000x512, .f32⟩
  | .hbm, ⟨33, _⟩ => ⟨S400000x512, .f32⟩
  | .hbm, ⟨34, _⟩ => ⟨S1x512, .f32⟩
  | .hbm, ⟨35, _⟩ => ⟨S400000x512, .f32⟩
  | .hbm, ⟨36, _⟩ => ⟨S400000x512, .f32⟩
  | .hbm, ⟨37, _⟩ => ⟨S400000x128, .f32⟩
  | .hbm, ⟨38, _⟩ => ⟨S400000x128, .f32⟩
  | .hbm, ⟨39, _⟩ => ⟨S400000x128, .f32⟩
  | .hbm, ⟨40, _⟩ => ⟨S400000x128, .f32⟩
  | .hbm, ⟨41, _⟩ => ⟨S400000x128, .f32⟩
  | .hbm, ⟨42, _⟩ => ⟨S400000x128, .f32⟩
  | .hbm, ⟨43, _⟩ => ⟨S_, .f32⟩
  | .hbm, ⟨44, _⟩ => ⟨S400000x128, .f32⟩
  | .hbm, ⟨45, _⟩ => ⟨S400000x128, .f32⟩
  | .hbm, ⟨46, _⟩ => ⟨S_, .f32⟩
  | .hbm, ⟨47, _⟩ => ⟨S400000x128, .f32⟩
  | .hbm, ⟨48, _⟩ => ⟨S400000x128, .f32⟩
  | .hbm, ⟨49, _⟩ => ⟨S400000x128, .f32⟩
  | .hbm, ⟨50, _⟩ => ⟨S400000x128, .f32⟩
  | .hbm, ⟨51, _⟩ => ⟨S_, .f32⟩
  | .hbm, ⟨52, _⟩ => ⟨S400000x128, .f32⟩
  | .hbm, ⟨53, _⟩ => ⟨S400000x128, .f32⟩
  | .hbm, ⟨54, _⟩ => ⟨S_, .f32⟩
  | .hbm, ⟨55, _⟩ => ⟨S400000x128, .f32⟩
  | .hbm, ⟨56, _⟩ => ⟨S400000x128, .f32⟩
  | .hbm, ⟨57, _⟩ => ⟨S400000x128, .f32⟩
  | .hbm, ⟨58, _⟩ => ⟨S400000x128, .f32⟩
  | .hbm, ⟨59, _⟩ => ⟨S400000x128, .f32⟩
  | .hbm, ⟨60, _⟩ => ⟨S_, .f32⟩
  | .hbm, ⟨61, _⟩ => ⟨S400000x128, .f32⟩
  | .hbm, ⟨62, _⟩ => ⟨S400000x128, .f32⟩
  | .hbm, ⟨63, _⟩ => ⟨S_, .f32⟩
  | .hbm, ⟨64, _⟩ => ⟨S400000x128, .f32⟩
  | .hbm, ⟨65, _⟩ => ⟨S400000x128, .f32⟩
  | .hbm, ⟨66, _⟩ => ⟨S400000x128, .f32⟩
  | .hbm, ⟨67, _⟩ => ⟨S400000x128, .f32⟩
  | .hbm, ⟨68, _⟩ => ⟨S400000x128, .f32⟩
  | .hbm, ⟨69, _⟩ => ⟨S400000x128, .f32⟩
  | .hbm, ⟨70, _⟩ => ⟨S400000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S400000x128 : S_.BroadcastsInDim S400000x128 (![] : Fin 0 → Fin S400000x128.rank)
  transposes_S512x128_S128x512_1_0 : S512x128.Transposes [1, 0] S128x512
  bcast_S512_S1x512_1 : S512.BroadcastsInDim S1x512 (![1] : Fin 1 → Fin S1x512.rank)
  bcast_S1x512_S400000x512_0_1 : S1x512.BroadcastsInDim S400000x512 (![0, 1] : Fin 2 → Fin S400000x512.rank)
  slices_S400000x512_S400000x128_0_0 : S400000x512.Slices ![0, 0] S400000x128
  slices_S400000x512_S400000x128_0_128 : S400000x512.Slices ![0, 128] S400000x128
  slices_S400000x512_S400000x128_0_256 : S400000x512.Slices ![0, 256] S400000x128
  slices_S400000x512_S400000x128_0_384 : S400000x512.Slices ![0, 384] S400000x128
  gather_S100000x128_S800000x1_S800000x128_1_0_n_n_0_1_1128_wf : GatherDims.WF S100000x128 S800000x1 S800000x128 [1] [0] [] [0] [] 1 ![1, 128]
  scatter_S400000x128_S800000x1_S800000x128_1_0_0_1_wf : ScatterDims.WF S400000x128 S800000x1 S800000x128 [1] [0] [0] 1
  dot_S400000x128_S128x512_S400000x512_1_0_0_1_n_n_wf : DotDims.WF S400000x128 S128x512 S400000x512 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def dot_S400000x128_S128x512_S400000x512_1_0_0_1_n_n : DotDims S400000x128 S128x512 S400000x512 where
  lhsContracting := [1]
  rhsContracting := [0]
  lhsNonContracting := [0]
  rhsNonContracting := [1]
  lhsBatch := []
  rhsBatch := []
  wf := dot_S400000x128_S128x512_S400000x512_1_0_0_1_n_n_wf

class Facts : Prop extends Facts₀ where

variable [Facts]
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.KernelGate.lean ====
/-
  The kernel body's gate pre-activations at one entry of a block of 2000 rows.

  The body multiplies the block of messages and the block of hidden states by the two transposed weight matrices (each
  product accumulated from zero; narrowing the operands to bf16 changes nothing on the extended reals), adds the two
  products, adds the two bias rows to each other, and adds that one row to every row of the sum. At row `p` and gate
  column `j` this is

      (Σₖ msg p k · Wᵀ_ih k j + Σₖ h p k · Wᵀ_hh k j) + (b_ih 0 j + b_hh 0 j),     k < 128.
-/
import proofs.«162841_j46669114638610_1_alg».proof.Proof.Gen.KernelIdeal.Skeleton
import proofs.«162841_j46669114638610_1_alg».proof.Proof.LibBlock
import Idealize.ShloMosaic.Lib.Pipeline.Value
import Idealize.ShloMosaic.Lib.ValueIdx
import Idealize.ShloMosaic.Lib.ValueLayout

noncomputable section

open scoped BigOperators

namespace Cert.KernelIdeal.Block

open Cert.KernelIdeal Cert.KernelIdeal.Gen Idealize.ShloMosaic Idealize.ShloMosaic.ValueIdx

variable [Cert.KernelIdeal.Facts]

/-- The [2000, 512] array of pre-activations the body computes from its six loaded blocks, read at row `p`, column `j`:
    the two matrix products as sums over the 128 features, the two bias rows at column `j`. -/
theorem gate_entry (P0 P1 : Vec Ideal S2000x128 .f32) (P2 P3 : Vec Ideal S128x512 .f32) (P4 P5 : Vec Ideal S1x512 .f32)
    (p : Fin 2000) (j : Fin 512) :
    k0_pay1 (F := Ideal) P0 P1 P2 P3 P4 P5 (ix2 p j)
      = (∑ k : Fin 128, P0 (ix2 p k) * P2 (ix2 k j) + ∑ k : Fin 128, P1 (ix2 p k) * P3 (ix2 k j))
        + (P4 (ix2 (0 : Fin 1) j) + P5 (ix2 (0 : Fin 1) j)) := by
  unfold k0_pay1
  unfold matmul
  rw [addf_apply, addf_apply,
    Cert.LibBlock.matmul_zero_ix2 dot_S2000x128_S128x512_S2000x512_1_0_0_1_n_n rfl rfl rfl rfl rfl rfl,
    Cert.LibBlock.matmul_zero_ix2 dot_S2000x128_S128x512_S2000x512_1_0_0_1_n_n rfl rfl rfl rfl rfl rfl,
    broadcastTo_1b_ab_apply, addf_apply]
  simp only [truncf_apply, shapeCast_self]

end Cert.KernelIdeal.Block

end
-- ==== Proof.LstmCell.lean ====
/-
  One step of an LSTM cell over edge rows, entry by entry on the extended reals.

  The rows are the 400000 edges, each with 128 features. A row's four gate pre-activations are the 512 columns

      gate r j = (Σₖ msg r k · W_ih j k  +  Σₖ h r k · W_hh j k) + (b_ih j + b_hh j),        k < 128, j < 512,

  where `msg` is the aggregated vertex message of the row, `h` its hidden state, `W_ih`, `W_hh` the two [512, 128] weight
  matrices (used transposed: column `j` of the product is row `j` of the weight) and `b_ih`, `b_hh` the two biases. The
  columns split in four blocks of 128: input (offset 0), forget (128), candidate (256), output (384). With
  σ x = 1 / (1 + e⁻ˣ):

      cellNew r q = σ (gate r (q + 128)) · c r q  +  σ (gate r q) · tanh (gate r (q + 256))
      hidNew  r q = σ (gate r (q + 384)) · tanh (cellNew r q).

  The other grouping of the same four summands, ((Σ msg·W_ih + b_ih) + Σ h·W_hh) + b_hh, is the same extended real:
  addition on the extended reals is commutative and associative (also at the infinities), which is all `gate_regroup` uses.
  No product is distributed and nothing is cancelled, so no entry needs to be finite.
-/
import Idealize.ShloMosaic.PureOps.Ideal
import Idealize.ShloMosaic.Lib.ValueIdx
import Idealize.ShloMosaic.Lib.IdealHost

noncomputable section

open scoped BigOperators

namespace Cert.LstmCell

open Idealize.ShloMosaic Idealize.ShloMosaic.ValueIdx

/-- The edge rows: 400000 rows of 128 features. -/
abbrev Rows : Shape := ⟨2, ![400000, 128]⟩
/-- A weight matrix: 512 gate columns by 128 features. -/
abbrev Wts : Shape := ⟨2, ![512, 128]⟩
/-- A bias: one entry per gate column. -/
abbrev Bias : Shape := ⟨1, ![512]⟩

/-- Column `q` of the gate block that starts at column `o`. -/
abbrev col (o : Nat) (ho : o + 128 ≤ 512) (q : Fin 128) : Fin 512 := ⟨q.val + o, by have := q.isLt; omega⟩

section
variable (msg h : Rows.Idx → EReal) (Wih Whh : Wts.Idx → EReal) (bih bhh : Bias.Idx → EReal)

/-- Row `r`'s pre-activation at gate column `j`: the two products summed, then the two biases summed, then both. -/
def gate (r : Fin 400000) (j : Fin 512) : EReal :=
  (∑ k : Fin 128, msg (ix2 r k) * Wih (ix2 j k) + ∑ k : Fin 128, h (ix2 r k) * Whh (ix2 j k)) + (bih (ix1 j) + bhh (ix1 j))

/-- The four summands added in the other order — first product, first bias, second product, second bias — give the same
    pre-activation: only commutativity and associativity of `+` on the extended reals. -/
theorem gate_regroup (r : Fin 400000) (j : Fin 512) :
    ((∑ k : Fin 128, msg (ix2 r k) * Wih (ix2 j k) + bih (ix1 j)) + ∑ k : Fin 128, h (ix2 r k) * Whh (ix2 j k)) + bhh (ix1 j)
      = gate msg h Wih Whh bih bhh r j := by
  unfold gate
  rw [add_assoc _ _ (bhh (ix1 j)), add_add_add_comm]

variable (c : Rows.Idx → EReal)

/-- The new cell state of row `r` at feature `q`: the forget gate times the old cell state plus the input gate times the
    candidate. -/
def cellNew (r : Fin 400000) (q : Fin 128) : EReal :=
  Ideal.logistic (gate msg h Wih Whh bih bhh r (col 128 (by decide) q)) * c (ix2 r q)
    + Ideal.logistic (gate msg h Wih Whh bih bhh r (col 0 (by decide) q)) * Ideal.tanh (gate msg h Wih Whh bih bhh r (col 256 (by decide) q))

/-- The new hidden state of row `r` at feature `q`: the output gate times tanh of the new cell state. -/
def hidNew (r : Fin 400000) (q : Fin 128) : EReal :=
  Ideal.logistic (gate msg h Wih Whh bih bhh r (col 384 (by decide) q)) * Ideal.tanh (cellNew msg h Wih Whh bih bhh c r q)

/-- The new cell states as one array. -/
def cellArr : Rows.Idx → EReal := fun i => cellNew msg h Wih Whh bih bhh c (i 0) (i 1)

/-- The new hidden states as one array. -/
def hidArr : Rows.Idx → EReal := fun i => hidNew msg h Wih Whh bih bhh c (i 0) (i 1)

theorem cellArr_ix2 (r : Fin 400000) (q : Fin 128) :
    cellArr msg h Wih Whh bih bhh c (ix2 r q) = cellNew msg h Wih Whh bih bhh c r q := rfl

theorem hidArr_ix2 (r : Fin 400000) (q : Fin 128) :
    hidArr msg h Wih Whh bih bhh c (ix2 r q) = hidNew msg h Wih Whh bih bhh c r q := rfl

end

/-- The logistic function spelt with a quotient and an exponential whose ones are the f32 pattern of 1. -/
theorem logistic_spelt (x : EReal) :
    Ideal.div (Ideal.ofBits .f32 0x3F800000#32) (Ideal.ofBits .f32 0x3F800000#32 + Ideal.exp (-x)) = Ideal.logistic x := by
  rw [Ideal.ofBits_one_f32]; rfl

end Cert.LstmCell

end
-- ==== Proof.KernelEntry.lean ====
/-
  What the kernel body leaves at one entry of its two output blocks, as the LSTM step of the spec.

  The grid has 200 points; point `T` works on rows 2000·T … 2000·T + 1999 of the three row arrays (messages, hidden
  states, cell states) and on the whole of the two transposed weight matrices and of the two bias rows. Stated over
  arbitrary blocks `P` that hold those entries: the pre-activation block is the spec's `gate` at the row's global number,
  the block stored to the cell-state output is `cellNew` and the one stored to the hidden-state output `hidNew`.
-/
import proofs.«162841_j46669114638610_1_alg».proof.Proof.Gen.KernelIdeal.Value
import proofs.«162841_j46669114638610_1_alg».proof.Proof.KernelGate
import proofs.«162841_j46669114638610_1_alg».proof.Proof.LstmCell

noncomputable section

open scoped BigOperators

namespace Cert.KernelIdeal.Block

open Cert.KernelIdeal Cert.KernelIdeal.Gen Idealize.ShloMosaic Idealize.ShloMosaic.ValueIdx Cert.LstmCell

/-- Row `p` of grid point `T`'s block, numbered in the whole array. -/
abbrev row (T : Nat) (hT : T < 200) (p : Fin 2000) : Fin 400000 := ⟨2000 * T + p.val, by have := p.isLt; omega⟩

section
variable (MSG H C : Rows.Idx → EReal) (W1 W2 : Wts.Idx → EReal) (b1 b2 : Bias.Idx → EReal)
  (P0 P1 P6 : Vec Ideal S2000x128 .f32) (P2 P3 : Vec Ideal S128x512 .f32) (P4 P5 : Vec Ideal S1x512 .f32)
  (T : Nat) (hT : T < 200)
  (h0 : ∀ (p : Fin 2000) (k : Fin 128), P0 (ix2 p k) = MSG (ix2 (row T hT p) k))
  (h1 : ∀ (p : Fin 2000) (k : Fin 128), P1 (ix2 p k) = H (ix2 (row T hT p) k))
  (h6 : ∀ (p : Fin 2000) (k : Fin 128), P6 (ix2 p k) = C (ix2 (row T hT p) k))
  (h2 : ∀ (k : Fin 128) (j : Fin 512), P2 (ix2 k j) = W1 (ix2 j k))
  (h3 : ∀ (k : Fin 128) (j : Fin 512), P3 (ix2 k j) = W2 (ix2 j k))
  (h4 : ∀ j : Fin 512, P4 (ix2 (0 : Fin 1) j) = b1 (ix1 j))
  (h5 : ∀ j : Fin 512, P5 (ix2 (0 : Fin 1) j) = b2 (ix1 j))
include h0 h1 h2 h3 h4 h5

/-- The body's pre-activations at row `p`, column `j` of the block are the spec's at the row's global number. -/
theorem gate_block (p : Fin 2000) (j : Fin 512) :
    k0_pay1 (F := Ideal) P0 P1 P2 P3 P4 P5 (ix2 p j) = gate MSG H W1 W2 b1 b2 (row T hT p) j := by
  rw [gate_entry]
  unfold gate
  simp only [h0, h1, h2, h3, h4, h5]

include h6

/-- The block stored to the cell-state output, at row `p`, feature `q`. -/
theorem cell_entry (p : Fin 2000) (q : Fin 128) :
    Value.E8 (F := Ideal) P0 P1 P2 P3 P4 P5 P6 (ix2 p q) = cellNew MSG H W1 W2 b1 b2 C (row T hT p) q := by
  have e0 : Value.ix8_0 (ix2 p q) = ix2 p (col 128 (by decide) q) :=
    funext fun a => Fin.ext (by match a with | ⟨0, _⟩ => rfl | ⟨1, _⟩ => rfl)
  have e1 : Value.ix8_1 (ix2 p q) = ix2 p q :=
    funext fun a => Fin.ext (by match a with | ⟨0, _⟩ => rfl | ⟨1, _⟩ => rfl)
  have e2 : Value.ix8_2 (ix2 p q) = ix2 p (col 0 (by decide) q) :=
    funext fun a => Fin.ext (by match a with | ⟨0, _⟩ => rfl | ⟨1, _⟩ => rfl)
  have e3 : Value.ix8_3 (ix2 p q) = ix2 p (col 256 (by decide) q) :=
    funext fun a => Fin.ext (by match a with | ⟨0, _⟩ => rfl | ⟨1, _⟩ => rfl)
  unfold Value.E8
  simp only [e0, e1, e2, e3, gate_block MSG H W1 W2 b1 b2 P0 P1 P2 P3 P4 P5 T hT h0 h1 h2 h3 h4 h5, h6]
  rfl

/-- The block stored to the hidden-state output, at row `p`, feature `q`. -/
theorem hid_entry (p : Fin 2000) (q : Fin 128) :
    Value.E7 (F := Ideal) P0 P1 P2 P3 P4 P5 P6 (ix2 p q) = hidNew MSG H W1 W2 b1 b2 C (row T hT p) q := by
  have e0 : Value.ix7_0 (ix2 p q) = ix2 p (col 384 (by decide) q) :=
    funext fun a => Fin.ext (by match a with | ⟨0, _⟩ => rfl | ⟨1, _⟩ => rfl)
  have e1 : Value.ix7_1 (ix2 p q) = ix2 p (col 128 (by decide) q) :=
    funext fun a => Fin.ext (by match a with | ⟨0, _⟩ => rfl | ⟨1, _⟩ => rfl)
  have e2 : Value.ix7_2 (ix2 p q) = ix2 p q :=
    funext fun a => Fin.ext (by match a with | ⟨0, _⟩ => rfl | ⟨1, _⟩ => rfl)
  have e3 : Value.ix7_3 (ix2 p q) = ix2 p (col 0 (by decide) q) :=
    funext fun a => Fin.ext (by match a with | ⟨0, _⟩ => rfl | ⟨1, _⟩ => rfl)
  have e4 : Value.ix7_4 (ix2 p q) = ix2 p (col 256 (by decide) q) :=
    funext fun a => Fin.ext (by match a with | ⟨0, _⟩ => rfl | ⟨1, _⟩ => rfl)
  unfold Value.E7
  simp only [e0, e1, e2, e3, e4, gate_block MSG H W1 W2 b1 b2 P0 P1 P2 P3 P4 P5 T hT h0 h1 h2 h3 h4 h5, h6]
  rfl

end

end Cert.KernelIdeal.Block

end
-- ==== Proof.KernelBlocks.lean ====
/-
  Blocks and arrays: where a block's entry sits in its array, for each of the kernel's nine windows.

  Grid point `t` of 200 works on rows 2000·t … 2000·t + 1999 of the five row arrays (messages, hidden states, cell
  states in; hidden states, cell states out) and on the whole of the two transposed weight matrices and of the two bias
  rows. So entry (p, k) of a row window's block is entry (2000·t + p, k) of its array, and an entry of a resident
  window's block is the same entry of its array. From that: the block of an arbitrary array read entry by entry, what
  the body leaves in its two output buffers entry by entry, and that a buffer holding rows 2000·t … of an array `G` is,
  written back at point `t`, block `t` of `G`.

  Everything that looks inside a block or an array is stated for an ARBITRARY array or block (a variable): the message
  array is a scatter-add over 800000 updates, and nothing here ever computes with it.
-/
import proofs.«162841_j46669114638610_1_alg».proof.Proof.Gen.KernelIdeal.Value
import proofs.«162841_j46669114638610_1_alg».proof.Proof.KernelEntry
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.Block

open Cert.KernelIdeal Cert.KernelIdeal.Gen Idealize.ShloMosaic Idealize.ShloMosaic.TcCoe Idealize.ShloMosaic.ValueIdx
  Idealize.SL.Sem Cert.LstmCell
open Idealize.ShloMosaic.Pipeline (Dat)

/-- The block index maps over the 200 grid points: the five row windows are at block row `t`, block column 0; the four
    resident windows stay at block (0, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem tlt (t : Fin cfg0.N) : t.val < 200 := lt_of_lt_of_eq t.isLt N_0

/-! ## Where a block's entry sits in its array -/

theorem emb0 (t : Fin cfg0.N) (p : Fin 2000) (k : Fin 128) :
    ((cfg0.win 0).blk t).view.emb (ix2 p k) = (ix2 (row t.val (tlt t) p) k : S400000x128.Idx) := by
  obtain ⟨e0, e1, -⟩ := idx_rows t
  funext a; apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

theorem emb1 (t : Fin cfg0.N) (p : Fin 2000) (k : Fin 128) :
    ((cfg0.win 1).blk t).view.emb (ix2 p k) = (ix2 (row t.val (tlt t) p) k : S400000x128.Idx) := by
  obtain ⟨-, -, e0, e1, -⟩ := idx_rows t
  funext a; apply Fin.ext
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

theorem emb2 (t : Fin cfg0.N) (p : Fin 2000) (k : Fin 128) :
    ((cfg0.win 2).blk t).view.emb (ix2 p k) = (ix2 (row t.val (tlt t) p) k : S400000x128.Idx) := by
  obtain ⟨-, -, -, -, e0, e1, -⟩ := idx_rows t
  funext a; apply Fin.ext
  match a with
  | ⟨0, _⟩ => show win0_2.index t (0 : Fin 2) * 2000 + 1 * p.val = 2000 * t.val + p.val; rw [e0]; omega
  | ⟨1, _⟩ => show win0_2.index t (1 : Fin 2) * 128 + 1 * k.val = k.val; rw [e1]; omega

theorem emb3 (t : Fin cfg0.N) (k : Fin 128) (j : Fin 512) :
    ((cfg0.win 3).blk t).view.emb (ix2 k j) = (ix2 k j : S128x512.Idx) := by
  obtain ⟨-, -, -, -, -, -, e0, e1, -⟩ := idx_rows t
  funext a; apply Fin.ext
  match a with
  | ⟨0, _⟩ => show win0_3.index t (0 : Fin 2) * 128 + 1 * k.val = k.val; rw [e0]; omega
  | ⟨1, _⟩ => show win0_3.index t (1 : Fin 2) * 512 + 1 * j.val = j.val; rw [e1]; omega

theorem emb4 (t : Fin cfg0.N) (k : Fin 128) (j : Fin 512) :
    ((cfg0.win 4).blk t).view.emb (ix2 k j) = (ix2 k j : S128x512.Idx) := by
  obtain ⟨-, -, -, -, -, -, -, -, e0, e1, -⟩ := idx_rows t
  funext a; apply Fin.ext
  match a with
  | ⟨0, _⟩ => show win0_4.index t (0 : Fin 2) * 128 + 1 * k.val = k.val; rw [e0]; omega
  | ⟨1, _⟩ => show win0_4.index t (1 : Fin 2) * 512 + 1 * j.val = j.val; rw [e1]; omega

theorem emb5 (t : Fin cfg0.N) (u : Fin 1) (j : Fin 512) :
    ((cfg0.win 5).blk t).view.emb (ix2 u j) = (ix2 u j : S1x512.Idx) := by
  obtain ⟨-, -, -, -, -, -, -, -, -, -, e0, e1, -⟩ := idx_rows t
  funext a; apply Fin.ext
  match a with
  | ⟨0, _⟩ => show win0_5.index t (0 : Fin 2) * 1 + 1 * u.val = u.val; rw [e0]; omega
  | ⟨1, _⟩ => show win0_5.index t (1 : Fin 2) * 512 + 1 * j.val = j.val; rw [e1]; omega

theorem emb6 (t : Fin cfg0.N) (u : Fin 1) (j : Fin 512) :
    ((cfg0.win 6).blk t).view.emb (ix2 u j) = (ix2 u j : S1x512.Idx) := by
  obtain ⟨-, -, -, -, -, -, -, -, -, -, -, -, e0, e1, -⟩ := idx_rows t
  funext a; apply Fin.ext
  match a with
  | ⟨0, _⟩ => show win0_6.index t (0 : Fin 2) * 1 + 1 * u.val = u.val; rw [e0]; omega
  | ⟨1, _⟩ => show win0_6.index t (1 : Fin 2) * 512 + 1 * j.val = j.val; rw [e1]; omega

theorem emb7 (t : Fin cfg0.N) (p : Fin 2000) (k : Fin 128) :
    ((cfg0.win 7).blk t).view.emb (ix2 p k) = (ix2 (row t.val (tlt t) p) k : S400000x128.Idx) := by
  obtain ⟨-, -, -, -, -, -, -, -, -, -, -, -, -, -, e0, e1, -⟩ := idx_rows t
  funext a; apply Fin.ext
  match a with
  | ⟨0, _⟩ => show win0_7.index t (0 : Fin 2) * 2000 + 1 * p.val = 2000 * t.val + p.val; rw [e0]; omega
  | ⟨1, _⟩ => show win0_7.index t (1 : Fin 2) * 128 + 1 * k.val = k.val; rw [e1]; omega

theorem emb8 (t : Fin cfg0.N) (p : Fin 2000) (k : Fin 128) :
    ((cfg0.win 8).blk t).view.emb (ix2 p k) = (ix2 (row t.val (tlt t) p) k : S400000x128.Idx) := by
  obtain ⟨-, -, -, -, -, -, -, -, -, -, -, -, -, -, -, -, e0, e1⟩ := idx_rows t
  funext a; apply Fin.ext
  match a with
  | ⟨0, _⟩ => show win0_8.index t (0 : Fin 2) * 2000 + 1 * p.val = 2000 * t.val + p.val; rw [e0]; omega
  | ⟨1, _⟩ => show win0_8.index t (1 : Fin 2) * 128 + 1 * k.val = k.val; rw [e1]; omega

/-! ## A window's block of an ARBITRARY array, entry by entry -/

theorem read0 (X : S400000x128.Idx → EReal) (t : Fin cfg0.N) (p : Fin 2000) (k : Fin 128) :
    (((cfg0.win 0).blk t).view.read (Elt Ideal) X : Vec Ideal S2000x128 .f32) (ix2 p k) = X (ix2 (row t.val (tlt t) p) k) :=
  congrArg X (emb0 t p k)

theorem read1 (X : S400000x128.Idx → EReal) (t : Fin cfg0.N) (p : Fin 2000) (k : Fin 128) :
    (((cfg0.win 1).blk t).view.read (Elt Ideal) X : Vec Ideal S2000x128 .f32) (ix2 p k) = X (ix2 (row t.val (tlt t) p) k) :=
  congrArg X (emb1 t p k)

theorem read2 (X : S400000x128.Idx → EReal) (t : Fin cfg0.N) (p : Fin 2000) (k : Fin 128) :
    (((cfg0.win 2).blk t).view.read (Elt Ideal) X : Vec Ideal S2000x128 .f32) (ix2 p k) = X (ix2 (row t.val (tlt t) p) k) :=
  congrArg X (emb2 t p k)

theorem read3 (X : S128x512.Idx → EReal) (t : Fin cfg0.N) (k : Fin 128) (j : Fin 512) :
    (((cfg0.win 3).blk t).view.read (Elt Ideal) X : Vec Ideal S128x512 .f32) (ix2 k j) = X (ix2 k j) :=
  congrArg X (emb3 t k j)

theorem read4 (X : S128x512.Idx → EReal) (t : Fin cfg0.N) (k : Fin 128) (j : Fin 512) :
    (((cfg0.win 4).blk t).view.read (Elt Ideal) X : Vec Ideal S128x512 .f32) (ix2 k j) = X (ix2 k j) :=
  congrArg X (emb4 t k j)

theorem read5 (X : S1x512.Idx → EReal) (t : Fin cfg0.N) (u : Fin 1) (j : Fin 512) :
    (((cfg0.win 5).blk t).view.read (Elt Ideal) X : Vec Ideal S1x512 .f32) (ix2 u j) = X (ix2 u j) :=
  congrArg X (emb5 t u j)

theorem read6 (X : S1x512.Idx → EReal) (t : Fin cfg0.N) (u : Fin 1) (j : Fin 512) :
    (((cfg0.win 6).blk t).view.read (Elt Ideal) X : Vec Ideal S1x512 .f32) (ix2 u j) = X (ix2 u j) :=
  congrArg X (emb6 t u j)

/-! ## The body's two stores and a write-back, for ARBITRARY blocks and arrays -/

/-- What the body leaves in the hidden-state output's buffer, at an entry: the generated entry-by-entry form. -/
theorem out7_entry (x0 x1 x2 : Vec Ideal S2000x128 .f32) (x3 x4 : Vec Ideal S128x512 .f32) (x5 x6 : Vec Ideal S1x512 .f32)
    (y : S2000x128.Idx) :
    out0_7 (F := Ideal) x0 x1 x2 x3 x4 x5 x6 y = Value.E7 (F := Ideal) x0 x1 x3 x4 x5 x6 x2 y := by
  unfold out0_7
  simp only [View.ld_unit_zero (S := S2000x128) Cert.LibBlock.hz, View.ld_unit_zero (S := S128x512) Cert.LibBlock.hz,
    View.ld_unit_zero (S := S1x512) Cert.LibBlock.hz]
  exact Value.canon7_eq x0 x1 x3 x4 x5 x6 x2 y

/-- What the body leaves in the cell-state output's buffer, at an entry. -/
theorem out8_entry (x0 x1 x2 : Vec Ideal S2000x128 .f32) (x3 x4 : Vec Ideal S128x512 .f32) (x5 x6 : Vec Ideal S1x512 .f32)
    (y : S2000x128.Idx) :
    out0_8 (F := Ideal) x0 x1 x2 x3 x4 x5 x6 y = Value.E8 (F := Ideal) x0 x1 x3 x4 x5 x6 x2 y := by
  unfold out0_8
  simp only [View.ld_unit_zero (S := S2000x128) Cert.LibBlock.hz, View.ld_unit_zero (S := S128x512) Cert.LibBlock.hz,
    View.ld_unit_zero (S := S1x512) Cert.LibBlock.hz]
  exact Value.canon8_eq x0 x1 x3 x4 x5 x6 x2 y

/-- A buffer whose entry (p, q) is the array `G` at row 2000·t + p is, written back at point `t`, block `t` of `G`. -/
theorem flush7_form (t : Fin cfg0.N) (Q : Vec Ideal S2000x128 .f32) (G : S400000x128.Idx → EReal)
    (h : ∀ (p : Fin 2000) (q : Fin 128), Q (ix2 p q) = G (ix2 (row t.val (tlt t) p) q)) :
    (cfg0.win 7).cut (grid0.coords t) Q = ((cfg0.win 7).blk t).view.read (Elt Ideal) G := by
  funext y
  obtain ⟨p, q, rfl⟩ : ∃ (p : Fin 2000) (q : Fin 128), y = ix2 p q := ⟨y 0, y 1, eq_ix2 y⟩
  show Q (ix2 p q) = G (((cfg0.win 7).blk t).view.emb (ix2 p q))
  rw [emb7 t p q]
  exact h p q

theorem flush8_form (t : Fin cfg0.N) (Q : Vec Ideal S2000x128 .f32) (G : S400000x128.Idx → EReal)
    (h : ∀ (p : Fin 2000) (q : Fin 128), Q (ix2 p q) = G (ix2 (row t.val (tlt t) p) q)) :
    (cfg0.win 8).cut (grid0.coords t) Q = ((cfg0.win 8).blk t).view.read (Elt Ideal) G := by
  funext y
  obtain ⟨p, q, rfl⟩ : ∃ (p : Fin 2000) (q : Fin 128), y = ix2 p q := ⟨y 0, y 1, eq_ix2 y⟩
  show Q (ix2 p q) = G (((cfg0.win 8).blk t).view.emb (ix2 p q))
  rw [emb8 t p q]
  exact h p q

end Cert.KernelIdeal.Block

end
-- ==== Proof.KernelRun.lean ====
/-
  The kernel's run, read: its two result arrays as the LSTM step of the arrays it finds.

  The message array is whatever the host's gather, scaling and scatter-add left before the launch; it is named and never
  opened. The hidden and cell states are the arguments themselves; each transposed weight matrix reads, at (k, j), its
  weight argument at (j, k); each bias row reads, at (0, j), its bias argument at j. With those seven readings every
  grid point's two stored blocks are rows 2000·t … 2000·t + 1999 of `hidArr` and `cellArr` (the spec's arrays); the 200
  blocks cover the two result arrays (row r is in the block of point r / 2000), so the arrays end as `hidArr`, `cellArr`.
-/
import proofs.«162841_j46669114638610_1_alg».proof.Proof.Gen.KernelIdeal.Value
import proofs.«162841_j46669114638610_1_alg».proof.Proof.KernelBlocks

noncomputable section

open scoped BigOperators

namespace Cert.KernelIdeal.Block

open Cert.KernelIdeal Cert.KernelIdeal.Gen Idealize.ShloMosaic Idealize.ShloMosaic.TcCoe Idealize.ShloMosaic.ValueIdx
  Idealize.SL.Sem Cert.LstmCell
open Idealize.ShloMosaic.Pipeline (Dat)

variable (m : (ℓ : Loc nD τ sig) → Buf (Elt Ideal) ℓ) (ρ : Dev nD → PrngReg)

/-! ## The seven input arrays as the region finds them -/

theorem V_hid (c : Dev nD) : V m c (Pipeline.arrRef spec0 1) = m ((c : Thread nD τ).loc main_arg1) := V_main_arg1 m c

theorem V_cell (c : Dev nD) : V m c (Pipeline.arrRef spec0 2) = m ((c : Thread nD τ).loc main_arg2) := V_main_arg2 m c

theorem V_wihT (c : Dev nD) :
    (V m c (Pipeline.arrRef spec0 3) : S128x512.Idx → EReal)
      = transpose S128x512 [1, 0] (m ((c : Thread nD τ).loc main_arg6)) transposes_S512x128_S128x512_1_0 := by
  show (V m c main_v13 : S128x512.Idx → EReal) = _
  dsimp only [Gen.V, Gen.hostOps0]; after_results

theorem V_whhT (c : Dev nD) :
    (V m c (Pipeline.arrRef spec0 4) : S128x512.Idx → EReal)
      = transpose S128x512 [1, 0] (m ((c : Thread nD τ).loc main_arg7)) transposes_S512x128_S128x512_1_0 := by
  show (V m c main_v14 : S128x512.Idx → EReal) = _
  dsimp only [Gen.V, Gen.hostOps0]; after_results

theorem V_bih (c : Dev nD) :
    (V m c (Pipeline.arrRef spec0 5) : S1x512.Idx → EReal)
      = shapeCast S1x512 (m ((c : Thread nD τ).loc main_arg8)) shapeCasts_S512_S1x512 := by
  show (V m c main_v15 : S1x512.Idx → EReal) = _
  dsimp only [Gen.V, Gen.hostOps0]; after_results; rfl

theorem V_bhh (c : Dev nD) :
    (V m c (Pipeline.arrRef spec0 6) : S1x512.Idx → EReal)
      = shapeCast S1x512 (m ((c : Thread nD τ).loc main_arg9)) shapeCasts_S512_S1x512 := by
  show (V m c main_v16 : S1x512.Idx → EReal) = _
  dsimp only [Gen.V, Gen.hostOps0]; after_results; rfl

/-! ## Each input window's block at a point, entry by entry -/

theorem blk_msg (c : Dev nD) (t : Fin cfg0.N) (p : Fin 2000) (k : Fin 128) :
    (iblk m c 0 t : Vec Ideal S2000x128 .f32) (ix2 p k)
      = (V m c (Pipeline.arrRef spec0 0) : S400000x128.Idx → EReal) (ix2 (row t.val (tlt t) p) k) := by
  unfold iblk
  exact read0 _ t p k

theorem blk_hid (c : Dev nD) (t : Fin cfg0.N) (p : Fin 2000) (k : Fin 128) :
    (iblk m c 1 t : Vec Ideal S2000x128 .f32) (ix2 p k)
      = (m ((c : Thread nD τ).loc main_arg1) : S400000x128.Idx → EReal) (ix2 (row t.val (tlt t) p) k) := by
  unfold iblk
  exact (read1 _ t p k).trans (congrFun (V_hid m c) _)

theorem blk_cell (c : Dev nD) (t : Fin cfg0.N) (p : Fin 2000) (k : Fin 128) :
    (iblk m c 2 t : Vec Ideal S2000x128 .f32) (ix2 p k)
      = (m ((c : Thread nD τ).loc main_arg2) : S400000x128.Idx → EReal) (ix2 (row t.val (tlt t) p) k) := by
  unfold iblk
  exact (read2 _ t p k).trans (congrFun (V_cell m c) _)

theorem blk_wih (c : Dev nD) (t : Fin cfg0.N) (k : Fin 128) (j : Fin 512) :
    (iblk m c 3 t : Vec Ideal S128x512 .f32) (ix2 k j)
      = (m ((c : Thread nD τ).loc main_arg6) : S512x128.Idx → EReal) (ix2 j k) := by
  unfold iblk
  exact (read3 _ t k j).trans ((congrFun (V_wihT m c) _).trans (transpose_ix2_apply _ _ k j))

theorem blk_whh (c : Dev nD) (t : Fin cfg0.N) (k : Fin 128) (j : Fin 512) :
    (iblk m c 4 t : Vec Ideal S128x512 .f32) (ix2 k j)
      = (m ((c : Thread nD τ).loc main_arg7) : S512x128.Idx → EReal) (ix2 j k) := by
  unfold iblk
  exact (read4 _ t k j).trans ((congrFun (V_whhT m c) _).trans (transpose_ix2_apply _ _ k j))

theorem blk_bih (c : Dev nD) (t : Fin cfg0.N) (j : Fin 512) :
    (iblk m c 5 t : Vec Ideal S1x512 .f32) (ix2 (0 : Fin 1) j)
      = (m ((c : Thread nD τ).loc main_arg8) : S512.Idx → EReal) (ix1 j) := by
  unfold iblk
  exact (read5 _ t 0 j).trans ((congrFun (V_bih m c) _).trans (shapeCast_a_1a_apply _ _ 0 j))

theorem blk_bhh (c : Dev nD) (t : Fin cfg0.N) (j : Fin 512) :
    (iblk m c 6 t : Vec Ideal S1x512 .f32) (ix2 (0 : Fin 1) j)
      = (m ((c : Thread nD τ).loc main_arg9) : S512.Idx → EReal) (ix1 j) := by
  unfold iblk
  exact (read6 _ t 0 j).trans ((congrFun (V_bhh m c) _).trans (shapeCast_a_1a_apply _ _ 0 j))

/-! ## What each point writes back, the cover, and the arrays after the run -/

/-- Point `t` writes back block `t` of the spec's hidden-state array. -/
theorem flushed_hid (c : Dev nD) (t : Fin cfg0.N) :
    (dats m 0 c).flushed 7 t = ((cfg0.win 7).blk t).view.read (Elt Ideal) (hidArr (V m c (Pipeline.arrRef spec0 0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg2))) :=
  (Value.flushed7 m c t).trans (flush7_form t _ _ fun p q =>
    (out7_entry _ _ _ _ _ _ _ (ix2 p q)).trans
      (hid_entry (MSG := V m c (Pipeline.arrRef spec0 0)) (H := m ((c : Thread nD τ).loc main_arg1))
        (C := m ((c : Thread nD τ).loc main_arg2)) (W1 := m ((c : Thread nD τ).loc main_arg6))
        (W2 := m ((c : Thread nD τ).loc main_arg7)) (b1 := m ((c : Thread nD τ).loc main_arg8))
        (b2 := m ((c : Thread nD τ).loc main_arg9)) _ _ _ _ _ _ _ t.val (tlt t)
        (blk_msg m c t) (blk_hid m c t) (blk_cell m c t) (blk_wih m c t) (blk_whh m c t) (blk_bih m c t) (blk_bhh m c t) p q))

/-- Point `t` writes back block `t` of the spec's cell-state array. -/
theorem flushed_cell (c : Dev nD) (t : Fin cfg0.N) :
    (dats m 0 c).flushed 8 t = ((cfg0.win 8).blk t).view.read (Elt Ideal) (cellArr (V m c (Pipeline.arrRef spec0 0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg2))) :=
  (Value.flushed8 m c t).trans (flush8_form t _ _ fun p q =>
    (out8_entry _ _ _ _ _ _ _ (ix2 p q)).trans
      (cell_entry (MSG := V m c (Pipeline.arrRef spec0 0)) (H := m ((c : Thread nD τ).loc main_arg1))
        (C := m ((c : Thread nD τ).loc main_arg2)) (W1 := m ((c : Thread nD τ).loc main_arg6))
        (W2 := m ((c : Thread nD τ).loc main_arg7)) (b1 := m ((c : Thread nD τ).loc main_arg8))
        (b2 := m ((c : Thread nD τ).loc main_arg9)) _ _ _ _ _ _ _ t.val (tlt t)
        (blk_msg m c t) (blk_hid m c t) (blk_cell m c t) (blk_wih m c t) (blk_whh m c t) (blk_bih m c t) (blk_bhh m c t) p q))

/-- Row `r` of a result array is in the block of point `r / 2000`. -/
theorem cover7 (i : S400000x128.Idx) :
    ∃ t : Fin cfg0.N, (cfg0.win 7).flush t = true ∧ i ∈ ((cfg0.win 7).blk t).view.set := by
  have h0 : (i 0).val < 400000 := (i 0).isLt
  have h1 : (i 1).val < 128 := (i 1).isLt
  have hN : cfg0.N = 200 := N_0
  let t : Fin cfg0.N := ⟨(i 0).val / 2000, by rw [hN]; omega⟩
  obtain ⟨-, -, -, -, -, -, -, -, -, -, -, -, -, -, e0, e1, -⟩ := idx_rows t
  have ht : t.val = (i 0).val / 2000 := rfl
  refine ⟨t, flush0_7 t, ?_⟩
  show i ∈ ((View.whole main_v17_0).slice (win0_7.rect t)).set
  rw [View.set_slice_whole, Rect.mem_set_unit]
  intro a
  match a with
  | ⟨0, _⟩ => show win0_7.index t (0 : Fin 2) * 2000 ≤ (i 0).val ∧ (i 0).val < win0_7.index t (0 : Fin 2) * 2000 + 2000; rw [e0, ht]; omega
  | ⟨1, _⟩ => show win0_7.index t (1 : Fin 2) * 128 ≤ (i 1).val ∧ (i 1).val < win0_7.index t (1 : Fin 2) * 128 + 128; rw [e1]; omega

theorem cover8 (i : S400000x128.Idx) :
    ∃ t : Fin cfg0.N, (cfg0.win 8).flush t = true ∧ i ∈ ((cfg0.win 8).blk t).view.set := by
  have h0 : (i 0).val < 400000 := (i 0).isLt
  have h1 : (i 1).val < 128 := (i 1).isLt
  have hN : cfg0.N = 200 := N_0
  let t : Fin cfg0.N := ⟨(i 0).val / 2000, by rw [hN]; omega⟩
  obtain ⟨-, -, -, -, -, -, -, -, -, -, -, -, -, -, -, -, e0, e1⟩ := idx_rows t
  have ht : t.val = (i 0).val / 2000 := rfl
  refine ⟨t, flush0_8 t, ?_⟩
  show i ∈ ((View.whole main_v17_1).slice (win0_8.rect t)).set
  rw [View.set_slice_whole, Rect.mem_set_unit]
  intro a
  match a with
  | ⟨0, _⟩ => show win0_8.index t (0 : Fin 2) * 2000 ≤ (i 0).val ∧ (i 0).val < win0_8.index t (0 : Fin 2) * 2000 + 2000; rw [e0, ht]; omega
  | ⟨1, _⟩ => show win0_8.index t (1 : Fin 2) * 128 ≤ (i 1).val ∧ (i 1).val < win0_8.index t (1 : Fin 2) * 128 + 128; rw [e1]; omega

/-- The hidden-state result array after the run. -/
theorem final_hid (c : Dev nD) : (dats m 0 c).arrAt 7 cfg0.N = hidArr (V m c (Pipeline.arrRef spec0 0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg2)) :=
  (dats m 0 c).arrAt_eq_of_cover 7 _ (fun t _ => flushed_hid m c t) cover7

/-- The cell-state result array after the run. -/
theorem final_cell (c : Dev nD) : (dats m 0 c).arrAt 8 cfg0.N = cellArr (V m c (Pipeline.arrRef spec0 0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg2)) :=
  (dats m 0 c).arrAt_eq_of_cover 8 _ (fun t _ => flushed_cell m c t) cover8

/-- The kernel's run, read: the two results at the spec's arrays, the ten arguments unchanged. -/
theorem run : θ_run defs (onTc (τ := τ) (main (F := Ideal))) ⟨m, fun _ => 0, ρ⟩ fun r => ∀ c : Dev nD,
      r.2.mem ((c : Thread nD τ).loc main_v17_0) = hidArr (V m c (Pipeline.arrRef spec0 0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg2))
      ∧ r.2.mem ((c : Thread nD τ).loc main_v17_1) = cellArr (V m c (Pipeline.arrRef spec0 0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_hid m c), (h c).2.1.trans (final_cell m c), (h c).2.2⟩)
    (Value.run_blocks m ρ)

end Cert.KernelIdeal.Block

end
-- ==== Proof.RefCell.lean ====
/-
  The reference's two results, entry by entry, are the LSTM step of the spec.

  The reference multiplies the message array by the transposed first weight matrix, adds the first bias to every row, adds
  the product of the hidden states with the transposed second weight matrix, adds the second bias: the four summands of
  the spec's `gate` in another order (`gate_regroup`). It slices the 512 columns into the four gate blocks, applies
  1 / (1 + e⁻ˣ) — the logistic function spelt out — to three of them and tanh to the candidate, and combines them with
  the cell states exactly as `cellNew` and `hidNew` do. The message array is named (`msg`) and never opened.
-/
import proofs.«162841_j46669114638610_1_alg».proof.Proof.Gen.ReferenceIdeal.Read
import proofs.«162841_j46669114638610_1_alg».proof.Proof.LstmCell

noncomputable section

open scoped BigOperators

namespace Cert.ReferenceIdeal.Cell

open Cert.ReferenceIdeal Cert.ReferenceIdeal.Read Idealize.ShloMosaic Idealize.ShloMosaic.ValueIdx Cert.LstmCell

variable (x0 : (⟨S100000x128, .f32⟩ : BufTy).Contents (Elt Ideal)) (x1 x2 : (⟨S400000x128, .f32⟩ : BufTy).Contents (Elt Ideal))
  (x3 : (⟨S800000, .f32⟩ : BufTy).Contents (Elt Ideal)) (x4 x5 : (⟨S800000, .i32⟩ : BufTy).Contents (Elt Ideal))
  (x6 x7 : (⟨S512x128, .f32⟩ : BufTy).Contents (Elt Ideal)) (x8 x9 : (⟨S512, .f32⟩ : BufTy).Contents (Elt Ideal))

/-- The aggregated messages: the host's gather of vertex rows, scaled by the edge values and scatter-added into the edge
    rows. A name for the reference's stage; nothing below looks inside. -/
abbrev msg : Rows.Idx → EReal := val_main_v12 (F := Ideal) x0 x3 x4 x5

/-- The reference's [400000, 512] pre-activations at row `r`, column `j`. -/
theorem gate_ref (r : Fin 400000) (j : Fin 512) :
    val_main_v23 (F := Ideal) x0 x1 x3 x4 x5 x6 x7 x8 x9 (ix2 r j) = gate (msg x0 x3 x4 x5) x1 x6 x7 x8 x9 r j := by
  rw [val_main_v23_apply, val_main_v20_apply, val_main_v17_apply, val_main_v14_apply, val_main_v19_apply,
    val_main_v16_apply, val_main_v15_apply, val_main_v22_apply, val_main_v21_apply]
  show _ = gate (val_main_v12 (F := Ideal) x0 x3 x4 x5) x1 x6 x7 x8 x9 r j
  generalize val_main_v12 (F := Ideal) x0 x3 x4 x5 = M
  have l14 : ∀ k : Fin 128, lidx_main_v14 (ix2 r j) k = ix2 r k := fun k =>
    funext fun a => Fin.ext (by match a with | ⟨0, _⟩ => rfl | ⟨1, _⟩ => rfl)
  have r14 : ∀ k : Fin 128, idx_main_v13 (ridx_main_v14 (ix2 r j) k) = ix2 j k := fun k =>
    funext fun a => Fin.ext (by match a with | ⟨0, _⟩ => rfl | ⟨1, _⟩ => rfl)
  have l19 : ∀ k : Fin 128, lidx_main_v19 (ix2 r j) k = ix2 r k := fun k =>
    funext fun a => Fin.ext (by match a with | ⟨0, _⟩ => rfl | ⟨1, _⟩ => rfl)
  have r19 : ∀ k : Fin 128, idx_main_v18 (ridx_main_v19 (ix2 r j) k) = ix2 j k := fun k =>
    funext fun a => Fin.ext (by match a with | ⟨0, _⟩ => rfl | ⟨1, _⟩ => rfl)
  have b15 : idx_main_v15 (idx_main_v16 (ix2 r j)) = ix1 j :=
    funext fun a => Fin.ext (by match a with | ⟨0, _⟩ => rfl)
  have b21 : idx_main_v21 (idx_main_v22 (ix2 r j)) = ix1 j :=
    funext fun a => Fin.ext (by match a with | ⟨0, _⟩ => rfl)
  simp only [val_main_v13_apply, val_main_v18_apply, l14, r14, l19, r19, b15, b21, Ideal.addf_def]
  exact gate_regroup M x1 x6 x7 x8 x9 r j

/-- The four column blocks of the pre-activations. -/
theorem slice_in (r : Fin 400000) (q : Fin 128) :
    val_main_v24 (F := Ideal) x0 x1 x3 x4 x5 x6 x7 x8 x9 (ix2 r q) = gate (msg x0 x3 x4 x5) x1 x6 x7 x8 x9 r (col 0 (by decide) q) := by
  rw [val_main_v24_apply, show idx_main_v24 (ix2 r q) = ix2 r (col 0 (by decide) q) from
    funext fun a => Fin.ext (by match a with | ⟨0, _⟩ => rfl | ⟨1, _⟩ => rfl)]
  exact gate_ref x0 x1 x3 x4 x5 x6 x7 x8 x9 r _

theorem slice_forget (r : Fin 400000) (q : Fin 128) :
    val_main_v25 (F := Ideal) x0 x1 x3 x4 x5 x6 x7 x8 x9 (ix2 r q) = gate (msg x0 x3 x4 x5) x1 x6 x7 x8 x9 r (col 128 (by decide) q) := by
  rw [val_main_v25_apply, show idx_main_v25 (ix2 r q) = ix2 r (col 128 (by decide) q) from
    funext fun a => Fin.ext (by match a with | ⟨0, _⟩ => rfl | ⟨1, _⟩ => exact Nat.add_comm _ _)]
  exact gate_ref x0 x1 x3 x4 x5 x6 x7 x8 x9 r _

theorem slice_cand (r : Fin 400000) (q : Fin 128) :
    val_main_v26 (F := Ideal) x0 x1 x3 x4 x5 x6 x7 x8 x9 (ix2 r q) = gate (msg x0 x3 x4 x5) x1 x6 x7 x8 x9 r (col 256 (by decide) q) := by
  rw [val_main_v26_apply, show idx_main_v26 (ix2 r q) = ix2 r (col 256 (by decide) q) from
    funext fun a => Fin.ext (by match a with | ⟨0, _⟩ => rfl | ⟨1, _⟩ => exact Nat.add_comm _ _)]
  exact gate_ref x0 x1 x3 x4 x5 x6 x7 x8 x9 r _

theorem slice_out (r : Fin 400000) (q : Fin 128) :
    val_main_v27 (F := Ideal) x0 x1 x3 x4 x5 x6 x7 x8 x9 (ix2 r q) = gate (msg x0 x3 x4 x5) x1 x6 x7 x8 x9 r (col 384 (by decide) q) := by
  rw [val_main_v27_apply, show idx_main_v27 (ix2 r q) = ix2 r (col 384 (by decide) q) from
    funext fun a => Fin.ext (by match a with | ⟨0, _⟩ => rfl | ⟨1, _⟩ => exact Nat.add_comm _ _)]
  exact gate_ref x0 x1 x3 x4 x5 x6 x7 x8 x9 r _

/-- The three spelt-out logistic gates. -/
theorem sig_in (r : Fin 400000) (q : Fin 128) :
    val_main_v33 (F := Ideal) x0 x1 x3 x4 x5 x6 x7 x8 x9 (ix2 r q)
      = Ideal.logistic (gate (msg x0 x3 x4 x5) x1 x6 x7 x8 x9 r (col 0 (by decide) q)) := by
  rw [val_main_v33_apply, val_main_v32_apply, val_main_cst_2_apply, val_main_v31_apply, val_main_v30_apply,
    val_main_cst_1_apply, val_main_v29_apply, val_main_v28_apply, slice_in]
  simp only [Ideal.hostDivf_def, Ideal.addf_def, Ideal.hostUnary_exp_def, Ideal.hostNegf_def, Ideal.negf_def, Ideal.ofBits_def]
  exact logistic_spelt _

theorem sig_forget (r : Fin 400000) (q : Fin 128) :
    val_main_v39 (F := Ideal) x0 x1 x3 x4 x5 x6 x7 x8 x9 (ix2 r q)
      = Ideal.logistic (gate (msg x0 x3 x4 x5) x1 x6 x7 x8 x9 r (col 128 (by decide) q)) := by
  rw [val_main_v39_apply, val_main_v38_apply, val_main_cst_4_apply, val_main_v37_apply, val_main_v36_apply,
    val_main_cst_3_apply, val_main_v35_apply, val_main_v34_apply, slice_forget]
  simp only [Ideal.hostDivf_def, Ideal.addf_def, Ideal.hostUnary_exp_def, Ideal.hostNegf_def, Ideal.negf_def, Ideal.ofBits_def]
  exact logistic_spelt _

theorem sig_out (r : Fin 400000) (q : Fin 128) :
    val_main_v46 (F := Ideal) x0 x1 x3 x4 x5 x6 x7 x8 x9 (ix2 r q)
      = Ideal.logistic (gate (msg x0 x3 x4 x5) x1 x6 x7 x8 x9 r (col 384 (by decide) q)) := by
  rw [val_main_v46_apply, val_main_v45_apply, val_main_cst_6_apply, val_main_v44_apply, val_main_v43_apply,
    val_main_cst_5_apply, val_main_v42_apply, val_main_v41_apply, slice_out]
  simp only [Ideal.hostDivf_def, Ideal.addf_def, Ideal.hostUnary_exp_def, Ideal.hostNegf_def, Ideal.negf_def, Ideal.ofBits_def]
  exact logistic_spelt _

/-- The reference's new cell states. -/
theorem cell_ref (r : Fin 400000) (q : Fin 128) :
    val_main_v49 (F := Ideal) x0 x1 x2 x3 x4 x5 x6 x7 x8 x9 (ix2 r q) = cellNew (msg x0 x3 x4 x5) x1 x6 x7 x8 x9 x2 r q := by
  rw [val_main_v49_apply, val_main_v47_apply, val_main_v48_apply, val_main_v40_apply, sig_forget, sig_in, slice_cand]
  simp only [Ideal.addf_def, Ideal.mulf_def, Ideal.hostUnary_tanh_def]
  rfl

/-- The reference's new hidden states. -/
theorem hid_ref (r : Fin 400000) (q : Fin 128) :
    val_main_v51 (F := Ideal) x0 x1 x2 x3 x4 x5 x6 x7 x8 x9 (ix2 r q) = hidNew (msg x0 x3 x4 x5) x1 x6 x7 x8 x9 x2 r q := by
  rw [val_main_v51_apply, val_main_v50_apply, sig_out, cell_ref]
  simp only [Ideal.mulf_def, Ideal.hostUnary_tanh_def]
  rfl

/-- As whole arrays. -/
theorem cellArr_ref : val_main_v49 (F := Ideal) x0 x1 x2 x3 x4 x5 x6 x7 x8 x9 = cellArr (msg x0 x3 x4 x5) x1 x6 x7 x8 x9 x2 := by
  funext i
  obtain ⟨r, q, rfl⟩ : ∃ (r : Fin 400000) (q : Fin 128), i = ix2 r q := ⟨i 0, i 1, eq_ix2 i⟩
  exact cell_ref x0 x1 x2 x3 x4 x5 x6 x7 x8 x9 r q

theorem hidArr_ref : val_main_v51 (F := Ideal) x0 x1 x2 x3 x4 x5 x6 x7 x8 x9 = hidArr (msg x0 x3 x4 x5) x1 x6 x7 x8 x9 x2 := by
  funext i
  obtain ⟨r, q, rfl⟩ : ∃ (r : Fin 400000) (q : Fin 128), i = ix2 r q := ⟨i 0, i 1, eq_ix2 i⟩
  exact hid_ref x0 x1 x2 x3 x4 x5 x6 x7 x8 x9 r q

end Cert.ReferenceIdeal.Cell

end
-- ==== Proof.Message.lean ====
/-
  The message array is one array on both sides.

  Before its launch the kernel's host code gathers the vertex rows at the (wrapped) column indices, scales them by the
  edge values and scatter-adds them into the edge rows from zero — the very operations, in the very order, with which
  the reference starts. So the array the kernel's region finds as its first operand is the reference's message stage of
  the same four arguments: the two composed terms are literally one term, and it is never evaluated.
-/
import proofs.«162841_j46669114638610_1_alg».proof.Proof.Gen.KernelIdeal.Frame
import proofs.«162841_j46669114638610_1_alg».proof.Proof.RefCell
import Idealize.ShloMosaic.Lib.StableHlo.Run

noncomputable section

namespace Cert.Proof.Message

open Idealize.ShloMosaic Idealize.ShloMosaic.TcCoe Idealize.SL.Sem Idealize.ShloMosaic.StableHlo

set_option maxRecDepth 8192 in
set_option maxHeartbeats 4000000 in
/-- The first operand of the kernel's launch, as the region finds it, is the reference's message stage of the kernel's
    own arguments. -/
theorem msg_eq (m : (ℓ : Loc Cert.KernelIdeal.nD Cert.KernelIdeal.τ Cert.KernelIdeal.sig) → Buf (Elt Ideal) ℓ)
    (c : Dev Cert.KernelIdeal.nD) :
    (Cert.KernelIdeal.Gen.V m c (Pipeline.arrRef Cert.KernelIdeal.spec0 0) : Cert.KernelIdeal.S400000x128.Idx → EReal)
      = Cert.ReferenceIdeal.Cell.msg (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  show (Cert.KernelIdeal.Gen.V m c Cert.KernelIdeal.main_v12 : Cert.KernelIdeal.S400000x128.Idx → EReal) = _
  dsimp only [Cert.KernelIdeal.Gen.V, Cert.KernelIdeal.Gen.hostOps0]
  after_results_simp <;> rfl

end Cert.Proof.Message

end
-- ==== Proof.lean ====
/-
  The certificate's claim: the Pallas LSTM-update kernel against its jnp reference.

  Both programs first build the same message array on the host (a gather of vertex rows, scaled, scatter-added into the
  edge rows). The kernel then runs one LSTM step on blocks of 2000 edge rows: the gate pre-activations as
  (msg·Wᵀ_ih + h·Wᵀ_hh) + (b_ih + b_hh), the three logistic gates and the tanh candidate, the new cell and hidden states.
  The reference runs the same step on the whole arrays, with the pre-activations summed as
  ((msg·Wᵀ_ih + b_ih) + h·Wᵀ_hh) + b_hh and the logistic function spelt 1 / (1 + e⁻ˣ).

  On the extended reals the two are one function of the arguments, entry by entry: a change of float format is the
  identity, both matrix products are the same sums over the 128 features, the two groupings of the four summands agree
  because `+` is commutative and associative (nothing is distributed or cancelled, so the inputs' finiteness is never
  used), and the logistic function is its spelling. The frames are the generated ones; the idealization rewrote nothing,
  so it is preserved trivially.
-/
import proofs.«162841_j46669114638610_1_alg».proof.Defs
import proofs.«162841_j46669114638610_1_alg».proof.Proof.Gen.Kernel
import proofs.«162841_j46669114638610_1_alg».proof.Proof.Gen.Kernel.Skeleton
import proofs.«162841_j46669114638610_1_alg».proof.Proof.Gen.Kernel.Launch
import proofs.«162841_j46669114638610_1_alg».proof.Proof.Gen.Kernel.Points
import proofs.«162841_j46669114638610_1_alg».proof.Proof.Gen.Kernel.Frame
import proofs.«162841_j46669114638610_1_alg».proof.Proof.Gen.KernelIdeal
import proofs.«162841_j46669114638610_1_alg».proof.Proof.Gen.KernelIdeal.Skeleton
import proofs.«162841_j46669114638610_1_alg».proof.Proof.Gen.KernelIdeal.Launch
import proofs.«162841_j46669114638610_1_alg».proof.Proof.Gen.KernelIdeal.Points
import proofs.«162841_j46669114638610_1_alg».proof.Proof.Gen.KernelIdeal.Frame
import proofs.«162841_j46669114638610_1_alg».proof.Proof.Gen.ReferenceIdeal
import proofs.«162841_j46669114638610_1_alg».proof.Proof.Gen.Pre_finite_inputs
import proofs.«162841_j46669114638610_1_alg».proof.Proof.Gen.KernelIdeal.Value
import proofs.«162841_j46669114638610_1_alg».proof.Proof.Gen.ReferenceIdeal.Run
import proofs.«162841_j46669114638610_1_alg».proof.Proof.Gen.ReferenceIdeal.Read
import Idealize.ShloMosaic.Adequacy
import Idealize.ShloMosaic.Init
import proofs.«162841_j46669114638610_1_alg».proof.Proof.KernelRun
import proofs.«162841_j46669114638610_1_alg».proof.Proof.RefCell
import proofs.«162841_j46669114638610_1_alg».proof.Proof.Message

noncomputable section

namespace Cert.Proof

open Idealize.ShloMosaic Idealize.SL.Sem Cert.Kernel

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the ten arguments, both programs end with the new hidden states and the new cell
    states of the spec, taken of one and the same message array. -/
theorem algebraic : Cert.algebraic_KernelIdeal_ReferenceIdeal := by
  intro m ρ m' ρ' _ hagree
  refine ⟨_, _, Cert.KernelIdeal.Block.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    obtain ⟨a0, a1, a2, a3, a4, a5, a6, a7, a8, a9⟩ := hagree c
    rw [Cert.ReferenceIdeal.Read.val_main_v51_eq, Cert.ReferenceIdeal.Cell.hidArr_ref, a0, a1, a2, a3, a4, a5, a6, a7, a8, a9,
      ← Cert.Proof.Message.msg_eq m c]
  · refine (h c).2.1.trans ?_
    obtain ⟨a0, a1, a2, a3, a4, a5, a6, a7, a8, a9⟩ := hagree c
    rw [Cert.ReferenceIdeal.Read.val_main_v49_eq, Cert.ReferenceIdeal.Cell.cellArr_ref, a0, a1, a2, a3, a4, a5, a6, a7, a8, a9,
      ← Cert.Proof.Message.msg_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
